-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x512x16 : Shape := ⟨4, ![8, 64, 512, 16]⟩
abbrev S8x64x512x1 : Shape := ⟨4, ![8, 64, 512, 1]⟩
abbrev S_ : Shape := ⟨0, ![]⟩

class Facts : Prop where
  bcast_S_S8x64x512x16 : S_.BroadcastsInDim S8x64x512x16 (![] : Fin 0 → Fin S8x64x512x16.rank)
  reducesTo_S8x64x512x16_S_d0_1_2_3 : S8x64x512x16.ReducesTo [0, 1, 2, 3] S_
  h_S_ : 0 < S_.numel
  bcast_S_S8x64x512x1 : S_.BroadcastsInDim S8x64x512x1 (![] : Fin 0 → Fin S8x64x512x1.rank)
  reducesTo_S8x64x512x1_S_d0_1_2_3 : S8x64x512x1.ReducesTo [0, 1, 2, 3] S_

variable [Facts]

def fn {F : FTy → Type} [FloatOps F] (main_arg0 : FVec F S8x64x512x16 .f32) (main_arg1 : FVec F S8x64x512x1 .f32) : IVec S_ 1 :=
  let main_v0 : FVec F S8x64x512x16 .f32 := Host.absf main_arg0
  let main_cst : FVec F S_ .f32 := constant S_ .f32 0x7F800000#32
  let main_v1 : FVec F S8x64x512x16 .f32 := broadcastInDim S8x64x512x16 ![] bcast_S_S8x64x512x16 main_cst
  let main_v2 : IVec S8x64x512x16 1 := cmpf .olt main_v0 main_v1
  let main_c : IVec S_ 1 := constantI S_ 1 1#1
  let main_v3 : IVec S_ 1 := (fun x v => Host.reduce IntOp.andi x v reducesTo_S8x64x512x16_S_d0_1_2_3 h_S_) main_v2 main_c
  let main_v4 : FVec F S8x64x512x1 .f32 := Host.absf main_arg1
  let main_cst_0 : FVec F S_ .f32 := constant S_ .f32 0x7F800000#32
  let main_v5 : FVec F S8x64x512x1 .f32 := broadcastInDim S8x64x512x1 ![] bcast_S_S8x64x512x1 main_cst_0
  let main_v6 : IVec S8x64x512x1 1 := cmpf .olt main_v4 main_v5
  let main_c_1 : IVec S_ 1 := constantI S_ 1 1#1
  let main_v7 : IVec S_ 1 := (fun x v => Host.reduce IntOp.andi x v reducesTo_S8x64x512x1_S_d0_1_2_3 h_S_) main_v6 main_c_1
  let main_v8 : IVec S_ 1 := andi main_v3 main_v7
  main_v8
-- ==== Kernel.lean ====
abbrev S8x64x512x16 : Shape := ⟨4, ![8, 64, 512, 16]⟩
abbrev S8x64x512x1 : Shape := ⟨4, ![8, 64, 512, 1]⟩
abbrev S8x64x512x512 : Shape := ⟨4, ![8, 64, 512, 512]⟩
abbrev S1x1x512x16 : Shape := ⟨4, ![1, 1, 512, 16]⟩
abbrev S1x1x512x1 : Shape := ⟨4, ![1, 1, 512, 1]⟩
abbrev S1x1x512x512 : Shape := ⟨4, ![1, 1, 512, 512]⟩
abbrev S512x16 : Shape := ⟨2, ![512, 16]⟩
abbrev S512x1 : Shape := ⟨2, ![512, 1]⟩
abbrev S512 : Shape := ⟨1, ![512]⟩
abbrev S16x512 : Shape := ⟨2, ![16, 512]⟩
abbrev S512x512 : Shape := ⟨2, ![512, 512]⟩
abbrev S1x512 : Shape := ⟨2, ![1, 512]⟩
abbrev S8x64x512x512x1 : Shape := ⟨5, ![8, 64, 512, 512, 1]⟩

abbrev nBuf : Space → Nat
  | .hbm => 4
  | .vmem => 6
  | .smem => 0
  | _ => 0

abbrev bufTy : (tb : Table) → Fin (tcTables nBuf tb) → BufTy
  | .hbm, ⟨0, _⟩ => ⟨S8x64x512x16, .f32⟩
  | .hbm, ⟨1, _⟩ => ⟨S8x64x512x1, .f32⟩
  | .hbm, ⟨2, _⟩ => ⟨S8x64x512x512, .f32⟩
  | .hbm, ⟨3, _⟩ => ⟨S8x64x512x512x1, .f32⟩
  | .local _ .vmem, ⟨0, _⟩ => ⟨S1x1x512x16, .f32⟩
  | .local _ .vmem, ⟨1, _⟩ => ⟨S1x1x512x16, .f32⟩
  | .local _ .vmem, ⟨2, _⟩ => ⟨S1x1x512x1, .f32⟩
  | .local _ .vmem, ⟨3, _⟩ => ⟨S1x1x512x1, .f32⟩
  | .local _ .vmem, ⟨4, _⟩ => ⟨S1x1x512x512, .f32⟩
  | .local _ .vmem, ⟨5, _⟩ => ⟨S1x1x512x512, .f32⟩
  | _, _ => ⟨S8x64x512x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 64], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x1x512x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  inb_S1x1x512x16_S1x1x512x16_0_0_0_0 : ∀ a, (![0, 0, 0, 0] : Fin 4 → Nat) a + S1x1x512x16.size a ≤ S1x1x512x16.size a
  h_S1x1x512x16 : 0 < S1x1x512x16.numel
  shapeCasts_S1x1x512x16_S512x16 : S1x1x512x16.ShapeCasts S512x16
  inb_S1x1x512x1_S1x1x512x1_0_0_0_0 : ∀ a, (![0, 0, 0, 0] : Fin 4 → Nat) a + S1x1x512x1.size a ≤ S1x1x512x1.size a
  h_S1x1x512x1 : 0 < S1x1x512x1.numel
  shapeCasts_S1x1x512x1_S512x1 : S1x1x512x1.ShapeCasts S512x1
  broadcasts_S512x1_S512x16 : S512x1.Broadcasts S512x16
  bitsLt_bf16_f32 : FTy.bits .bf16 < FTy.bits .f32
  reduces_S512x16_S512 : S512x16.Reduces [1] S512
  shapeCasts_S512_S512x1 : S512.ShapeCasts S512x1
  transposes_S512x16_p1_0_S16x512 : S512x16.Transposes [1, 0] S16x512
  transposes_S512x1_p1_0_S1x512 : S512x1.Transposes [1, 0] S1x512
  broadcasts_S512x1_S512x512 : S512x1.Broadcasts S512x512
  broadcasts_S1x512_S512x512 : S1x512.Broadcasts S512x512
  inb_S1x1x512x512_S1x1x512x512_0_0_0_0 : ∀ a, (![0, 0, 0, 0] : Fin 4 → Nat) a + S1x1x512x512.size a ≤ S1x1x512x512.size a
  h_S1x1x512x512 : 0 < S1x1x512x512.numel
  shapeCasts_S1x1x512x512_S512x512 : S1x1x512x512.ShapeCasts S512x512
  shapeCasts_S512x512_S1x1x512x512 : S512x512.ShapeCasts S1x1x512x512
  bcast_S8x64x512x512_S8x64x512x512x1_0_1_2_3 : S8x64x512x512.BroadcastsInDim S8x64x512x512x1 (![0, 1, 2, 3] : Fin 4 → Fin S8x64x512x512x1.rank)
  dot_S512x16_S16x512_S512x512_1_0_0_1_n_n_wf : DotDims.WF S512x16 S16x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x16.size a ≤ S8x64x512x16.size a
  hwx0_0 : ∀ i : grid0.Coords, EltTy.bits .f32 = 32 ∨ (Rect.block (s := S8x64x512x16) S1x1x512x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x1.size a ≤ S8x64x512x1.size a
  hwx0_1 : ∀ i : grid0.Coords, EltTy.bits .f32 = 32 ∨ (Rect.block (s := S8x64x512x1) S1x1x512x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512x512.size a ≤ S8x64x512x512.size a
  hwx0_2 : ∀ i : grid0.Coords, EltTy.bits .f32 = 32 ∨ (Rect.block (s := S8x64x512x512) S1x1x512x512.size (cc0_transform_2 i) (hinb0_2 i)).WholeWords (EltTy.packing .f32)

variable [Facts₀]

def dot_S512x16_S16x512_S512x512_1_0_0_1_n_n : DotDims S512x16 S16x512 S512x512 where
  lhsContracting := [1]
  rhsContracting := [0]
  lhsNonContracting := [0]
  rhsNonContracting := [1]
  lhsBatch := []
  rhsBatch := []
  wf := dot_S512x16_S16x512_S512x512_1_0_0_1_n_n_wf

abbrev win0_0 : Pipeline.Window sig grid0 :=
  Pipeline.Window.ofSpec (Memref.whole main_arg0) S1x1x512x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x512x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x64x512x16 : Shape := ⟨4, ![8, 64, 512, 16]⟩
abbrev S8x64x512x1 : Shape := ⟨4, ![8, 64, 512, 1]⟩
abbrev S_ : Shape := ⟨0, ![]⟩
abbrev S8x64x512 : Shape := ⟨3, ![8, 64, 512]⟩
abbrev S8x64x512x512 : Shape := ⟨4, ![8, 64, 512, 512]⟩
abbrev S8x64x1x512 : Shape := ⟨4, ![8, 64, 1, 512]⟩
abbrev S8x64x512x512x1 : Shape := ⟨5, ![8, 64, 512, 512, 1]⟩

abbrev nBuf : Space → Nat
  | .hbm => 34
  | .vmem => 0
  | .smem => 0
  | _ => 0

abbrev bufTy : (tb : Table) → Fin (tcTables nBuf tb) → BufTy
  | .hbm, ⟨0, _⟩ => ⟨S8x64x512x16, .f32⟩
  | .hbm, ⟨1, _⟩ => ⟨S8x64x512x1, .f32⟩
  | .hbm, ⟨2, _⟩ => ⟨S8x64x512x16, .f32⟩
  | .hbm, ⟨3, _⟩ => ⟨S8x64x512x16, .f32⟩
  | .hbm, ⟨4, _⟩ => ⟨S8x64x512x16, .f32⟩
  | .hbm, ⟨5, _⟩ => ⟨S_, .f32⟩
  | .hbm, ⟨6, _⟩ => ⟨S8x64x512, .f32⟩
  | .hbm, ⟨7, _⟩ => ⟨S8x64x512x512, .f32⟩
  | .hbm, ⟨8, _⟩ => ⟨S8x64x512x1, .f32⟩
  | .hbm, ⟨9, _⟩ => ⟨S_, .f32⟩
  | .hbm, ⟨10, _⟩ => ⟨S8x64x512x512, .f32⟩
  | .hbm, ⟨11, _⟩ => ⟨S8x64x512x512, .f32⟩
  | .hbm, ⟨12, _⟩ => ⟨S8x64x512x512, .f32⟩
  | .hbm, ⟨13, _⟩ => ⟨S8x64x512x512, .f32⟩
  | .hbm, ⟨14, _⟩ => ⟨S8x64x1x512, .f32⟩
  | .hbm, ⟨15, _⟩ => ⟨S8x64x512x512, .f32⟩
  | .hbm, ⟨16, _⟩ => ⟨S8x64x512x512, .f32⟩
  | .hbm, ⟨17, _⟩ => ⟨S_, .f32⟩
  | .hbm, ⟨18, _⟩ => ⟨S8x64x512x512, .f32⟩
  | .hbm, ⟨19, _⟩ => ⟨S8x64x512x512, .f32⟩
  | .hbm, ⟨20, _⟩ => ⟨S8x64x512x512, .f32⟩
  | .hbm, ⟨21, _⟩ => ⟨S_, .f32⟩
  | .hbm, ⟨22, _⟩ => ⟨S8x64x512x512, .f32⟩
  | .hbm, ⟨23, _⟩ => ⟨S8x64x512x512, .f32⟩
  | .hbm, ⟨24, _⟩ => ⟨S8x64x512x512, .f32⟩
  | .hbm, ⟨25, _⟩ => ⟨S8x64x512x512x1, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8x64x512x512x1, .f32⟩
  | .hbm, ⟨30, _⟩ => ⟨S8x64x512x512x1, .f32⟩
  | .hbm, ⟨31, _⟩ => ⟨S_, .f32⟩
  | .hbm, ⟨32, _⟩ => ⟨S8x64x512x512x1, .f32⟩
  | .hbm, ⟨33, _⟩ => ⟨S8x64x512x512x1, .f32⟩
  | _, _ => ⟨S8x64x512x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_cst_2 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_cst_4 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v20 : Ref sig .tc := ⟨.hbm, 33, rfl⟩

abbrev nD : Nat := 1
abbrev τ : Topo := Topo.v7x

variable {F : FTy → Type} [FloatOps F]

class Facts₀ : Prop where
  bcast_S8x64x512x1_S8x64x512x16_0_1_2_3 : S8x64x512x1.BroadcastsInDim S8x64x512x16 (![0, 1, 2, 3] : Fin 4 → Fin S8x64x512x16.rank)
  reducesTo_S8x64x512x16_S8x64x512_d3 : S8x64x512x16.ReducesTo [3] S8x64x512
  h_S_ : 0 < S_.numel
  bcast_S8x64x512_S8x64x512x1_0_1_2 : S8x64x512.BroadcastsInDim S8x64x512x1 (![0, 1, 2] : Fin 3 → Fin S8x64x512x1.rank)
  bcast_S_S8x64x512x512 : S_.BroadcastsInDim S8x64x512x512 (![] : Fin 0 → Fin S8x64x512x512.rank)
  bcast_S8x64x512x1_S8x64x512x512_0_1_2_3 : S8x64x512x1.BroadcastsInDim S8x64x512x512 (![0, 1, 2, 3] : Fin 4 → Fin S8x64x512x512.rank)
  bcast_S8x64x512_S8x64x1x512_0_1_3 : S8x64x512.BroadcastsInDim S8x64x1x512 (![0, 1, 3] : Fin 3 → Fin S8x64x1x512.rank)
  bcast_S8x64x1x512_S8x64x512x512_0_1_2_3 : S8x64x1x512.BroadcastsInDim S8x64x512x512 (![0, 1, 2, 3] : Fin 4 → Fin S8x64x512x512.rank)
  bcast_S8x64x512x512_S8x64x512x512x1_0_1_2_3 : S8x64x512x512.BroadcastsInDim S8x64x512x512x1 (![0, 1, 2, 3] : Fin 4 → Fin S8x64x512x512x1.rank)
  bcast_S_S8x64x512x512x1 : S_.BroadcastsInDim S8x64x512x512x1 (![] : Fin 0 → Fin S8x64x512x512x1.rank)
  dot_S8x64x512x16_S8x64x512x16_S8x64x512x512_3_3_2_2_01_01_wf : DotDims.WF S8x64x512x16 S8x64x512x16 S8x64x512x512 [3] [3] [2] [2] [0, 1] [0, 1]

variable [Facts₀]

def dot_S8x64x512x16_S8x64x512x16_S8x64x512x512_3_3_2_2_01_01 : DotDims S8x64x512x16 S8x64x512x16 S8x64x512x512 where
  lhsContracting := [3]
  rhsContracting := [3]
  lhsNonContracting := [2]
  rhsNonContracting := [2]
  lhsBatch := [0, 1]
  rhsBatch := [0, 1]
  wf := dot_S8x64x512x16_S8x64x512x16_S8x64x512x512_3_3_2_2_01_01_wf

class Facts : Prop extends Facts₀ where

variable [Facts]
-- ==== Proof.GaussSpec.lean ====
/-
  The function both programs compute, stated once, index by index, over the extended reals.

  Per (batch, bin) cell there are 512 nodes with 16 features each.  With the masked features
  A n f = x[n, f] · m[n], the squared norms s n = ∑ f, A n f · A n f and the Gram entries
  g n n' = ∑ f, A n f · A n' f, the entry for a pair of nodes is

      min 1 (max 0 (exp (c · √(max ((s n − 2 · g n n') + s n') ε))))

  where c is the f32 nearest to −1/10 and ε the f32 nearest to 1e-6: the SAME two words on both sides, so
  neither is ever evaluated.  The grouping (s n − 2·g) + s n' is the one both programs use, so no law of
  arithmetic is needed to compare them and no input has to be finite.
-/
import Idealize.ShloMosaic.PureOps.Ideal
import Idealize.ShloMosaic.Lib.ValueIdx

noncomputable section

namespace Cert.Gauss

open Idealize.ShloMosaic Idealize.ShloMosaic.ValueIdx

/-- The last steps on one squared distance d: clamp below by ε, square root, scale by c, exponential, clip to
    [0, 1] (lower bound first, then upper). -/
def clipExp (d : EReal) : EReal :=
  min (Ideal.ofBits .f32 0x3F800000#32)
    (max (Ideal.ofBits .f32 0x00000000#32)
      (Ideal.exp (Ideal.ofBits .f32 0xBDCCCCCD#32 * Ideal.sqrt (max d (Ideal.ofBits .f32 0x358637BD#32)))))

/-- The entry for the pair of nodes (n, n') of one cell whose masked features are A. -/
def pairEntry (A : Fin 512 → Fin 16 → EReal) (n n' : Fin 512) : EReal :=
  clipExp ((∑ f : Fin 16, A n f * A n f) - Ideal.ofBits .f32 0x40000000#32 * (∑ f : Fin 16, A n f * A n' f)
    + ∑ f : Fin 16, A n' f * A n' f)

/-- The masked features of cell (b, k): feature f of node n times the node's mask. -/
def masked (x : (⟨4, ![8, 64, 512, 16]⟩ : Shape).Idx → EReal) (mk : (⟨4, ![8, 64, 512, 1]⟩ : Shape).Idx → EReal)
    (b : Fin 8) (k : Fin 64) : Fin 512 → Fin 16 → EReal :=
  fun n f => x (ix4 b k n f) * mk (ix4 b k n (0 : Fin 1))

/-- The whole result before the trailing unit axis is added: entry (b, k, n, n'). -/
def pairwise (x : (⟨4, ![8, 64, 512, 16]⟩ : Shape).Idx → EReal) (mk : (⟨4, ![8, 64, 512, 1]⟩ : Shape).Idx → EReal) :
    (⟨4, ![8, 64, 512, 512]⟩ : Shape).Idx → EReal :=
  fun i => pairEntry (masked x mk (i 0) (i 1)) (i 2) (i 3)

/-- The result as both programs return it, with the trailing unit axis: entry (b, k, n, n', 0). -/
def result (x : (⟨4, ![8, 64, 512, 16]⟩ : Shape).Idx → EReal) (mk : (⟨4, ![8, 64, 512, 1]⟩ : Shape).Idx → EReal) :
    (⟨5, ![8, 64, 512, 512, 1]⟩ : Shape).Idx → EReal :=
  fun i => pairwise x mk (ix4 (i 0) (i 1) (i 2) (i 3))

theorem pairwise_ix4 (x : (⟨4, ![8, 64, 512, 16]⟩ : Shape).Idx → EReal) (mk : (⟨4, ![8, 64, 512, 1]⟩ : Shape).Idx → EReal)
    (b : Fin 8) (k : Fin 64) (n n' : Fin 512) :
    pairwise x mk (ix4 b k n n') = pairEntry (masked x mk b k) n n' := rfl

end Cert.Gauss

end
-- ==== Proof.RefIsSpec.lean ====
/-
  The reference, read one operation at a time at explicit coordinates, is the specification.

  The reference forms the masked features over the whole [8, 64, 512, 16] array, their squared norms by a sum over
  the feature axis (started from the literal zero), the Gram entries by a dot over the feature axis with the batch
  axes (b, k) carried along, broadcasts the norms along the rows and along the columns, and finishes entrywise.
  Every index map below is a literal re-arrangement of coordinates.
-/
import proofs.«110803_j30288109371690_1_alg».proof.Proof.Gen.ReferenceIdeal.Read
import proofs.«110803_j30288109371690_1_alg».proof.Proof.GaussSpec

noncomputable section

namespace Cert.Gauss.Ref

open Cert.ReferenceIdeal Cert.ReferenceIdeal.Read Idealize.ShloMosaic Idealize.ShloMosaic.ValueIdx Cert.Gauss

variable (x0 : (⟨S8x64x512x16, .f32⟩ : BufTy).Contents (Elt Ideal)) (x1 : (⟨S8x64x512x1, .f32⟩ : BufTy).Contents (Elt Ideal))

/-! ## The index maps, at coordinates -/

theorem idx_mask (b : Fin 8) (k : Fin 64) (n : Fin 512) (f : Fin 16) :
    idx_main_v0 (ix4 b k n f) = ix4 b k n (0 : Fin 1) :=
  funext fun a => Fin.ext (by match a with | ⟨0, _⟩ => rfl | ⟨1, _⟩ => rfl | ⟨2, _⟩ => rfl | ⟨3, _⟩ => rfl)

theorem idx_sum (b : Fin 8) (k : Fin 64) (n : Fin 512) (f : Fin 16) :
    idx_main_v3 (ix3 b k n) f = ix4 b k n f :=
  funext fun a => Fin.ext (by match a with | ⟨0, _⟩ => rfl | ⟨1, _⟩ => rfl | ⟨2, _⟩ => rfl | ⟨3, _⟩ => rfl)

theorem idx_dot_left (b : Fin 8) (k : Fin 64) (n n' : Fin 512) (f : Fin 16) :
    lidx_main_v4 (ix4 b k n n') f = ix4 b k n f :=
  funext fun a => Fin.ext (by match a with | ⟨0, _⟩ => rfl | ⟨1, _⟩ => rfl | ⟨2, _⟩ => rfl | ⟨3, _⟩ => rfl)

theorem idx_dot_right (b : Fin 8) (k : Fin 64) (n n' : Fin 512) (f : Fin 16) :
    ridx_main_v4 (ix4 b k n n') f = ix4 b k n' f :=
  funext fun a => Fin.ext (by match a with | ⟨0, _⟩ => rfl | ⟨1, _⟩ => rfl | ⟨2, _⟩ => rfl | ⟨3, _⟩ => rfl)

theorem idx_row (b : Fin 8) (k : Fin 64) (n n' : Fin 512) :
    idx_main_v5 (idx_main_v8 (ix4 b k n n')) = ix3 b k n :=
  funext fun a => Fin.ext (by match a with | ⟨0, _⟩ => rfl | ⟨1, _⟩ => rfl | ⟨2, _⟩ => rfl)

theorem idx_col (b : Fin 8) (k : Fin 64) (n n' : Fin 512) :
    idx_main_v10 (idx_main_v11 (ix4 b k n n')) = ix3 b k n' :=
  funext fun a => Fin.ext (by match a with | ⟨0, _⟩ => rfl | ⟨1, _⟩ => rfl | ⟨2, _⟩ => rfl)

theorem idx_unit (b : Fin 8) (k : Fin 64) (n n' : Fin 512) (u : Fin 1) :
    idx_main_v19 (ix5 b k n n' u) = ix4 b k n n' :=
  funext fun a => Fin.ext (by match a with | ⟨0, _⟩ => rfl | ⟨1, _⟩ => rfl | ⟨2, _⟩ => rfl | ⟨3, _⟩ => rfl)

/-! ## The stages -/

/-- The reference's masked features are the specification's. -/
theorem feat (b : Fin 8) (k : Fin 64) (n : Fin 512) (f : Fin 16) :
    val_main_v1 (F := Ideal) x0 x1 (ix4 b k n f) = masked x0 x1 b k n f := by
  rw [val_main_v1_apply, val_main_v0_apply, idx_mask]
  rfl

/-- The squared norm of node n of cell (b, k): the literal zero plus the sum of squares is the sum of squares. -/
theorem sqnorm (b : Fin 8) (k : Fin 64) (n : Fin 512) :
    val_main_v3 (F := Ideal) x0 x1 (ix3 b k n) = ∑ f : Fin 16, masked x0 x1 b k n f * masked x0 x1 b k n f := by
  rw [val_main_v3_apply, val_main_cst_apply]
  show Ideal.ofBits .f32 0x00000000#32 + _ = _
  rw [Ideal.ofBits_zero_f32, zero_add]
  refine Finset.sum_congr rfl fun f _ => ?_
  rw [val_main_v2_apply, idx_sum, feat]
  rfl

/-- The Gram entry of nodes n, n' of cell (b, k). -/
theorem gram (b : Fin 8) (k : Fin 64) (n n' : Fin 512) :
    val_main_v4 (F := Ideal) x0 x1 (ix4 b k n n') = ∑ f : Fin 16, masked x0 x1 b k n f * masked x0 x1 b k n' f := by
  rw [val_main_v4_apply]
  refine Finset.sum_congr rfl fun f _ => ?_
  rw [idx_dot_left, idx_dot_right, feat, feat]

/-- The reference before its trailing unit axis and clip: the exponential of the scaled distance. -/
theorem expo (b : Fin 8) (k : Fin 64) (n n' : Fin 512) :
    val_main_v18 (F := Ideal) x0 x1 (ix4 b k n n')
      = Ideal.exp (Ideal.ofBits .f32 0xBDCCCCCD#32 * Ideal.sqrt (max
          ((∑ f : Fin 16, masked x0 x1 b k n f * masked x0 x1 b k n f)
            - Ideal.ofBits .f32 0x40000000#32 * (∑ f : Fin 16, masked x0 x1 b k n f * masked x0 x1 b k n' f)
            + ∑ f : Fin 16, masked x0 x1 b k n' f * masked x0 x1 b k n' f)
          (Ideal.ofBits .f32 0x358637BD#32))) := by
  rw [val_main_v18_apply, val_main_v17_apply, val_main_v16_apply, val_main_cst_2_apply, val_main_v15_apply,
    val_main_v14_apply, val_main_v13_apply, val_main_cst_1_apply, val_main_v12_apply, val_main_v9_apply,
    val_main_v8_apply, val_main_v5_apply, idx_row, sqnorm, val_main_v7_apply, val_main_v6_apply, val_main_cst_0_apply,
    gram, val_main_v11_apply, val_main_v10_apply, idx_col, sqnorm]
  rfl

/-- THE REFERENCE IS THE SPECIFICATION: its last stage, at every index, is the specified entry. -/
theorem ref_is_result : val_main_v20 (F := Ideal) x0 x1 = result x0 x1 := by
  funext i
  obtain ⟨b, k, n, n', u, rfl⟩ : ∃ (b : Fin 8) (k : Fin 64) (n n' : Fin 512) (u : Fin 1), i = ix5 b k n n' u :=
    ⟨i 0, i 1, i 2, i 3, i 4, eq_ix5 i⟩
  rw [val_main_v20_apply, val_main_call0_v4_apply, val_main_call0_v3_apply, val_main_cst_4_apply,
    val_main_call0_v2_apply, val_main_call0_v1_apply, val_main_call0_v0_apply, val_main_cst_3_apply,
    val_main_v19_apply, idx_unit, expo]
  rfl

end Cert.Gauss.Ref

end
-- ==== Proof.LibKeepdims.lean ====
/-
  A row statistic kept as a column, and a [1, 1, a, b] block seen as a matrix.

  A kernel that works on one [a, b] tile of a [1, 1, a, b] block drops the two leading unit axes on the way in and
  puts them back on the way out; a per-row statistic kept with a trailing unit axis ([a, 1]) is spread along the
  rows to [a, b] by a broadcast; and a sum over the last axis of an [a, b] array, read at row r, is the sum of that
  row's entries.  Each is read here at explicit coordinates.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An [a, 1] column spread along the rows to [a, b], read at (p, c): the column's entry p. -/
theorem column_broadcast_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A [1, 1, a, b] block seen as an [a, b] matrix, read at (i, j): the block's entry (0, 0, i, j). -/
theorem shapeCast_11ab_ab_apply {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An [a, b] matrix put back as a [1, 1, a, b] block, read at (u, v, i, j): the matrix's entry (i, j). -/
theorem shapeCast_ab_11ab_apply {a b : ℕ} (x : (⟨2, ![a, b]⟩ : Shape).Idx → α)
    (h : (⟨2, ![a, b]⟩ : Shape).ShapeCasts ⟨4, ![1, 1, a, b]⟩) (u v : Fin 1) (i : Fin a) (j : Fin b) :
    shapeCast ⟨4, ![1, 1, a, b]⟩ x h (ix4 u v i j) = x (ix2 i j) :=
  shapeCast_apply x h _ _ (by
    have hu : u.val = 0 := by omega
    have hv : v.val = 0 := by omega
    rw [Shape.rowMajor_val_four, Shape.rowMajor_val_two]
    show i.val * b + j.val = ((u.val * 1 + v.val) * a + i.val) * b + j.val
    rw [hu, hv]
    simp only [Nat.zero_mul, Nat.zero_add])

/-- Over the extended reals, the sum over the last axis of an [a, b] array, read at row r, is the sum over the
    row's b entries. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src ?_
  funext c
  apply Fin.ext
  match c with
  | ⟨0, _⟩ => rfl
  | ⟨1, _⟩ => rfl

end Cert.Keepdims
-- ==== Proof.LibColumns.lean ====
/-
  Columns of a rank-two array, as vectors.

  A program that works on an [n, w] array column by column cuts column `k` out as an [n, 1] slice and flattens it
  to a vector of `n` entries, and sets a computed vector of `n` entries up again as an [n, 1] column before putting
  it in its place. Read at a row `r`, the first is the array's entry (r, k) and the second is the vector's entry
  `r`: the row-major position of (r, 0) among [n, 1] is `r`, the position of `r` among [n].
-/
import Idealize.ShloMosaic.Lib.Pipeline.Value
import Idealize.ShloMosaic.Lib.ValueIdx

namespace Cert.TriInv

open Idealize.ShloMosaic Idealize.ShloMosaic.ValueIdx

variable {α : Type}

/-- Column `k` of an [n, w] array, cut out as an [n, 1] slice and flattened, read at row `r`: the entry (r, k). -/
theorem column_apply (n w k : Nat) (hk : k < w) (x : (⟨2, ![n, w]⟩ : Shape).Idx → α)
    (hs : (⟨2, ![n, w]⟩ : Shape).Slices ![0, k] ⟨2, ![n, 1]⟩) (hc : (⟨2, ![n, 1]⟩ : Shape).ShapeCasts ⟨1, ![n]⟩)
    (r : Fin n) :
    shapeCast ⟨1, ![n]⟩ (extractStridedSlice ⟨2, ![n, 1]⟩ ![0, k] x hs) hc (ix1 r) = x (ix2 r ⟨k, hk⟩) := by
  refine (shapeCast_apply _ hc (ix1 r) (ix2 r (0 : Fin 1)) ?_).trans ?_
  · rw [Shape.rowMajor_val_two, Shape.rowMajor_val_one]
    show r.val * 1 + 0 = r.val
    omega
  · refine extractStridedSlice_apply ![0, k] x hs (ix2 r (0 : Fin 1)) (ix2 r ⟨k, hk⟩) fun a => ?_
    match a with
    | ⟨0, _⟩ => show r.val = 0 + r.val; omega
    | ⟨1, _⟩ => show k = k + 0; omega

/-- A vector of `n` entries set up as an [n, 1] column, read at (r, 0): the vector's entry `r`. -/
theorem asColumn_apply (n : Nat) (w : (⟨1, ![n]⟩ : Shape).Idx → α)
    (hc : (⟨1, ![n]⟩ : Shape).ShapeCasts ⟨2, ![n, 1]⟩) (r : Fin n) (z : Fin 1) :
    shapeCast ⟨2, ![n, 1]⟩ w hc (ix2 r z) = w (ix1 r) := by
  refine shapeCast_apply w hc (ix2 r z) (ix1 r) ?_
  rw [Shape.rowMajor_val_two, Shape.rowMajor_val_one]
  have hz : z.val < 1 := z.isLt
  show r.val = r.val * 1 + z.val
  omega

end Cert.TriInv
-- ==== Proof.BodyAtIndex.lean ====
/-
  The kernel body's stored value, read at one entry of the [1, 1, 512, 512] output block.

  The body's arithmetic is cut into four stages, each a function of the one before: the masked features of the
  block's 512 nodes; their squared norms, kept as a column; the Gram matrix, a product of the feature matrix with
  its own transpose into a zero accumulator (the rounding to the narrow format on the way in is the identity over
  the extended reals); and the entrywise finish on norms and Gram matrix.  The stored value is their composition,
  and each stage is read at explicit coordinates.
-/
import proofs.«110803_j30288109371690_1_alg».proof.Proof.Gen.KernelIdeal.Skeleton
import proofs.«110803_j30288109371690_1_alg».proof.Proof.GaussSpec
import proofs.«110803_j30288109371690_1_alg».proof.Proof.LibKeepdims
import proofs.«110803_j30288109371690_1_alg».proof.Proof.LibColumns
import Idealize.ShloMosaic.Lib.ValueLayout
import Idealize.ShloMosaic.PureOps.Ideal.Laws

noncomputable section

namespace Cert.Gauss.Body

open Cert.KernelIdeal Cert.KernelIdeal.Gen Idealize.ShloMosaic Idealize.ShloMosaic.ValueIdx Cert.Gauss

/-! ## The four stages -/

/-- The masked features of the block's nodes, as the body forms them: the feature block times the mask column spread
    along the features. -/
def featOf (v0 : Vec Ideal S1x1x512x16 .f32) (v2 : Vec Ideal S1x1x512x1 .f32) : FVec Ideal S512x16 .f32 :=
  mulf (shapeCast S512x16 v0 shapeCasts_S1x1x512x16_S512x16)
    (broadcastTo S512x16 (shapeCast S512x1 v2 shapeCasts_S1x1x512x1_S512x1) broadcasts_S512x1_S512x16)

/-- The squared norms of the rows of a feature matrix, kept as a column. -/
def normsOf (A : FVec Ideal S512x16 .f32) : FVec Ideal S512x1 .f32 :=
  shapeCast S512x1 (multiReduction .add [1] S512 (mulf A A) 0x00000000#32 reduces_S512x16_S512 (.inl rfl) rfl)
    shapeCasts_S512_S512x1

/-- The Gram matrix of a feature matrix: its product with its own transpose, into a zero accumulator. -/
def gramOf (A : FVec Ideal S512x16 .f32) : FVec Ideal S512x512 .f32 :=
  matmul dot_S512x16_S16x512_S512x512_1_0_0_1_n_n none (truncf .bf16 A bitsLt_bf16_f32)
    (transpose S16x512 [1, 0] (truncf .bf16 A bitsLt_bf16_f32) transposes_S512x16_p1_0_S16x512)
    (constant S512x512 .f32 0x00000000#32)

/-- The entrywise finish on the norms column N and the Gram matrix G, stored with two leading unit axes. -/
def finishOf (N : FVec Ideal S512x1 .f32) (G : FVec Ideal S512x512 .f32) : FVec Ideal S1x1x512x512 .f32 :=
  shapeCast S1x1x512x512
    (minimumf (broadcast S512x512 (Scalar.ofBits .f32 0x3F800000#32))
      (maximumf (broadcast S512x512 (Scalar.ofBits .f32 0x00000000#32))
        (exp (mulf (broadcast S512x512 (Scalar.ofBits .f32 0xBDCCCCCD#32))
          (sqrt (maximumf
            (addf (subf (broadcastTo S512x512 N broadcasts_S512x1_S512x512)
                (mulf (broadcast S512x512 (Scalar.ofBits .f32 0x40000000#32)) G))
              (broadcastTo S512x512 (transpose S1x512 [1, 0] N transposes_S512x1_p1_0_S1x512) broadcasts_S1x512_S512x512))
            (broadcast S512x512 (Scalar.ofBits .f32 0x358637BD#32))))))))
    shapeCasts_S512x512_S1x1x512x512

/-- The body's stored value is the composition of the four stages. -/
theorem pay_eq (v0 : Vec Ideal S1x1x512x16 .f32) (v2 : Vec Ideal S1x1x512x1 .f32) :
    k0_pay1 (F := Ideal) v0 v2 = finishOf (normsOf (featOf v0 v2)) (gramOf (featOf v0 v2)) := rfl

/-! ## Each stage at coordinates -/

/-- The masked features of the block: feature f of node n times the node's mask. -/
def blockFeat (v0 : Vec Ideal S1x1x512x16 .f32) (v2 : Vec Ideal S1x1x512x1 .f32) : Fin 512 → Fin 16 → EReal :=
  fun n f => v0 (ix4 (0 : Fin 1) (0 : Fin 1) n f) * v2 (ix4 (0 : Fin 1) (0 : Fin 1) n (0 : Fin 1))

theorem featOf_apply (v0 : Vec Ideal S1x1x512x16 .f32) (v2 : Vec Ideal S1x1x512x1 .f32) (n : Fin 512) (f : Fin 16) :
    featOf v0 v2 (ix2 n f) = blockFeat v0 v2 n f := by
  unfold featOf blockFeat
  rw [mulf_apply, Cert.Keepdims.shapeCast_11ab_ab_apply, Cert.Keepdims.column_broadcast_apply,
    Cert.Keepdims.shapeCast_11ab_ab_apply]

theorem normsOf_apply (A : FVec Ideal S512x16 .f32) (n : Fin 512) (z : Fin 1) :
    normsOf A (ix2 n z) = ∑ f : Fin 16, A (ix2 n f) * A (ix2 n f) := by
  unfold normsOf
  rw [Cert.TriInv.asColumn_apply]
  exact Cert.Keepdims.rowSum_apply (mulf A A) 0x00000000#32 reduces_S512x16_S512 (.inl rfl) rfl n

/-- The left operand's row coordinate is the result's row. -/
theorem left_row (i : S512x512.Idx) (q : dot_S512x16_S16x512_S512x512_1_0_0_1_n_n.contr.Idx) :
    (dot_S512x16_S16x512_S512x512_1_0_0_1_n_n.lhsIdx i q 0).val = (i 0).val := by
  unfold DotDims.lhsIdx
  rw [dif_neg (show ¬(0 : Fin S512x16.rank) ∈ dot_S512x16_S16x512_S512x512_1_0_0_1_n_n.lhsBatch by decide),
    dif_pos (show (0 : Fin S512x16.rank) ∈ dot_S512x16_S16x512_S512x512_1_0_0_1_n_n.lhsNonContracting by decide)]
  rfl

/-- The right operand's column coordinate is the result's column. -/
theorem right_col (i : S512x512.Idx) (q : dot_S512x16_S16x512_S512x512_1_0_0_1_n_n.contr.Idx) :
    (dot_S512x16_S16x512_S512x512_1_0_0_1_n_n.rhsIdx i q 1).val = (i 1).val := by
  unfold DotDims.rhsIdx
  rw [dif_neg (show ¬(1 : Fin S16x512.rank) ∈ dot_S512x16_S16x512_S512x512_1_0_0_1_n_n.rhsBatch by decide),
    dif_pos (show (1 : Fin S16x512.rank) ∈ dot_S512x16_S16x512_S512x512_1_0_0_1_n_n.rhsNonContracting by decide)]
  rfl

/-- A [512, 16] by [16, 512] product into a zero accumulator, at (n, n'): the sum over the 16 shared coordinates. -/
theorem product_apply (L : FVec Ideal S512x16 .bf16) (R : FVec Ideal S16x512 .bf16) (n n' : Fin 512) :
    matmul dot_S512x16_S16x512_S512x512_1_0_0_1_n_n none L R (constant S512x512 .f32 0x00000000#32) (ix2 n n')
      = ∑ f : Fin 16, L (ix2 n f) * R (ix2 f n') := by
  simp only [matmul]
  rw [Ideal.matmul_constant_zero_apply,
    ← Equiv.sum_comp (contrEquiv1 dot_S512x16_S16x512_S512x512_1_0_0_1_n_n 16 rfl rfl).symm]
  refine Finset.sum_congr rfl fun f _ => ?_
  have hk := contrEquiv1_symm_val dot_S512x16_S16x512_S512x512_1_0_0_1_n_n 16 rfl rfl f
  have el : dot_S512x16_S16x512_S512x512_1_0_0_1_n_n.lhsIdx (ix2 n n')
      ((contrEquiv1 dot_S512x16_S16x512_S512x512_1_0_0_1_n_n 16 rfl rfl).symm f) = ix2 n f :=
    funext fun a => Fin.ext (by
      match a with
      | ⟨0, _⟩ => exact left_row _ _
      | ⟨1, _⟩ => exact (dot_S512x16_S16x512_S512x512_1_0_0_1_n_n.lhsIdx_val_of_single rfl _ _).trans hk)
  have er : dot_S512x16_S16x512_S512x512_1_0_0_1_n_n.rhsIdx (ix2 n n')
      ((contrEquiv1 dot_S512x16_S16x512_S512x512_1_0_0_1_n_n 16 rfl rfl).symm f) = ix2 f n' :=
    funext fun a => Fin.ext (by
      match a with
      | ⟨0, _⟩ => exact (dot_S512x16_S16x512_S512x512_1_0_0_1_n_n.rhsIdx_val_of_single rfl _ _).trans hk
      | ⟨1, _⟩ => exact right_col _ _)
  rw [el, er]

theorem gramOf_apply (A : FVec Ideal S512x16 .f32) (n n' : Fin 512) :
    gramOf A (ix2 n n') = ∑ f : Fin 16, A (ix2 n f) * A (ix2 n' f) := by
  unfold gramOf
  rw [product_apply]
  refine Finset.sum_congr rfl fun f _ => ?_
  rw [transpose_ix2_apply]
  rfl

theorem finishOf_apply (N : FVec Ideal S512x1 .f32) (G : FVec Ideal S512x512 .f32) (u v : Fin 1) (n n' : Fin 512) :
    finishOf N G (ix4 u v n n')
      = clipExp (N (ix2 n (0 : Fin 1)) - Ideal.ofBits .f32 0x40000000#32 * G (ix2 n n') + N (ix2 n' (0 : Fin 1))) := by
  unfold finishOf
  rw [Cert.Keepdims.shapeCast_ab_11ab_apply]
  show min (Ideal.ofBits .f32 0x3F800000#32) (max (Ideal.ofBits .f32 0x00000000#32) (Ideal.exp (Ideal.ofBits .f32 0xBDCCCCCD#32
    * Ideal.sqrt (max (broadcastTo S512x512 N broadcasts_S512x1_S512x512 (ix2 n n')
        - Ideal.ofBits .f32 0x40000000#32 * G (ix2 n n')
        + broadcastTo S512x512 (transpose S1x512 [1, 0] N transposes_S512x1_p1_0_S1x512) broadcasts_S1x512_S512x512 (ix2 n n'))
      (Ideal.ofBits .f32 0x358637BD#32))))) = _
  rw [Cert.Keepdims.column_broadcast_apply, broadcastTo_1b_ab_apply, transpose_ix2_apply]
  rfl

/-! ## The stored value at an entry -/

/-- THE BODY'S VALUE at entry (n, n') of the block is the specified entry for the block's masked features. -/
theorem pay_apply (v0 : Vec Ideal S1x1x512x16 .f32) (v2 : Vec Ideal S1x1x512x1 .f32) (u v : Fin 1) (n n' : Fin 512) :
    k0_pay1 (F := Ideal) v0 v2 (ix4 u v n n') = pairEntry (blockFeat v0 v2) n n' := by
  rw [pay_eq, finishOf_apply, normsOf_apply, normsOf_apply, gramOf_apply]
  unfold pairEntry
  simp only [featOf_apply]

end Cert.Gauss.Body

end
-- ==== Proof.BlocksToArray.lean ====
/-
  From what each grid point writes back to the whole [8, 64, 512, 512] array.

  The grid has one point per cell (b, k).  At that point each of the three windows sits at block (b, k, 0, 0): the
  feature window holds the cell's [512, 16] features, the mask window its [512, 1] mask, and the output window
  receives the cell's [512, 512] entries.  So what the point writes back is block (b, k) of the specified array, the
  blocks of all cells cover the array, and the array after the region is the specified one.
-/
import proofs.«110803_j30288109371690_1_alg».proof.Proof.Gen.KernelIdeal.Frame
import proofs.«110803_j30288109371690_1_alg».proof.Proof.BodyAtIndex
import Idealize.ShloMosaic.Lib.Pipeline.Value

noncomputable section

namespace Cert.Gauss.Blocks

open Cert.KernelIdeal Cert.KernelIdeal.Gen Idealize.ShloMosaic Idealize.ShloMosaic.TcCoe Idealize.SL.Sem
open Idealize.ShloMosaic.ValueIdx Cert.Gauss
open Idealize.ShloMosaic.Pipeline (Dat)

variable (m : (ℓ : Loc nD τ sig) → Buf (Elt Ideal) ℓ)

theorem zeros4 : (![0, 0, 0, 0] : Fin 4 → Nat) = fun _ => 0 := funext fun a => by fin_cases a <;> rfl

/-! ## One entry of one cell's block -/

/-- If the feature block and the mask block are cell (b, k) of two arrays X0, X1, then the body's value at entry y
    of the output block is the specified entry at the array index i lying under y in cell (b, k). -/
theorem block_entry (X0 : (⟨4, ![8, 64, 512, 16]⟩ : Shape).Idx → EReal) (X1 : (⟨4, ![8, 64, 512, 1]⟩ : Shape).Idx → EReal)
    (x0 : Vec Ideal S1x1x512x16 .f32) (x1 : Vec Ideal S1x1x512x1 .f32) (b : Fin 8) (k : Fin 64)
    (h0 : ∀ (n : Fin 512) (f : Fin 16), x0 (ix4 (0 : Fin 1) (0 : Fin 1) n f) = X0 (ix4 b k n f))
    (h1 : ∀ n : Fin 512, x1 (ix4 (0 : Fin 1) (0 : Fin 1) n (0 : Fin 1)) = X1 (ix4 b k n (0 : Fin 1)))
    (y : S1x1x512x512.Idx) (i : S8x64x512x512.Idx)
    (hi0 : (i 0).val = b.val) (hi1 : (i 1).val = k.val) (hi2 : (i 2).val = (y 2).val) (hi3 : (i 3).val = (y 3).val) :
    k0_pay1 (F := Ideal) x0 x1 y = pairwise X0 X1 i := by
  obtain ⟨u, v, n, n', rfl⟩ : ∃ (u v : Fin 1) (n n' : Fin 512), y = ix4 u v n n' := ⟨y 0, y 1, y 2, y 3, eq_ix4 y⟩
  obtain ⟨b', k', p, p', rfl⟩ : ∃ (b' : Fin 8) (k' : Fin 64) (p p' : Fin 512), i = ix4 b' k' p p' :=
    ⟨i 0, i 1, i 2, i 3, eq_ix4 i⟩
  obtain rfl : b' = b := Fin.ext hi0
  obtain rfl : k' = k := Fin.ext hi1
  obtain rfl : p = n := Fin.ext hi2
  obtain rfl : p' = n' := Fin.ext hi3
  rw [Body.pay_apply, pairwise_ix4]
  refine congrArg (fun A => pairEntry A p p') ?_
  funext n f
  show x0 _ * x1 _ = X0 _ * X1 _
  rw [h0, h1]

/-! ## The index maps over the grid -/

/-- At every point the three windows sit at the same cell (b, k) and at block 0 on the two node axes; b < 8, k < 64. -/
theorem idx_facts : ∀ t : Fin cfg0.N,
    win0_0.index t (0 : Fin 4) = win0_2.index t (0 : Fin 4) ∧ win0_0.index t (1 : Fin 4) = win0_2.index t (1 : Fin 4)
    ∧ win0_0.index t (2 : Fin 4) = 0 ∧ win0_0.index t (3 : Fin 4) = 0
    ∧ win0_1.index t (0 : Fin 4) = win0_2.index t (0 : Fin 4) ∧ win0_1.index t (1 : Fin 4) = win0_2.index t (1 : Fin 4)
    ∧ win0_1.index t (2 : Fin 4) = 0 ∧ win0_1.index t (3 : Fin 4) = 0
    ∧ win0_2.index t (2 : Fin 4) = 0 ∧ win0_2.index t (3 : Fin 4) = 0
    ∧ win0_2.index t (0 : Fin 4) < 8 ∧ win0_2.index t (1 : Fin 4) < 64 :=
  (by decide +kernel : ∀ t : Fin grid0.N, _)

/-- The points run through the cells in row-major order: point t is cell (t / 64, t % 64). -/
theorem idx_cell : ∀ t : Fin cfg0.N,
    win0_2.index t (0 : Fin 4) = t.val / 64 ∧ win0_2.index t (1 : Fin 4) = t.val % 64 :=
  (by decide +kernel : ∀ t : Fin grid0.N, _)

/-! ## What a point writes back -/

/-- WHAT POINT t WRITES BACK is block t of the specified array of the argument arrays as the region finds them. -/
theorem flushed_eq (c : Dev nD) (t : Fin cfg0.N) :
    (dats m 0 c).flushed 2 t
      = ((cfg0.win 2).blk t).view.read (Elt Ideal) (pairwise (V m c main_arg0) (V m c main_arg1)) := by
  show (cfg0.win 2).cut (grid0.coords t) ((dats m 0 c).after 2 t) = _
  rw [after0_2]
  unfold out0_2
  rw [View.canon_unit_zero zeros4]
  simp only [View.ld_unit_zero (S := S1x1x512x16) zeros4, View.ld_unit_zero (S := S1x1x512x1) zeros4]
  obtain ⟨e00, e01, e02, e03, e10, e11, e12, e13, e22, e23, lb, lk⟩ := idx_facts t
  funext j
  show k0_pay1 (F := Ideal) (iblk m c 0 t) (iblk m c 1 t) j
    = pairwise (V m c main_arg0) (V m c main_arg1) (((cfg0.win 2).blk t).view.emb j)
  refine block_entry (V m c main_arg0) (V m c main_arg1) (iblk m c 0 t) (iblk m c 1 t)
    ⟨win0_2.index t (0 : Fin 4), lb⟩ ⟨win0_2.index t (1 : Fin 4), lk⟩ ?_ ?_ j (((cfg0.win 2).blk t).view.emb j) ?_ ?_ ?_ ?_
  · intro n f
    show V m c main_arg0 (((cfg0.win 0).blk t).view.emb (ix4 (0 : Fin 1) (0 : Fin 1) n f)) = _
    refine congrArg (V m c main_arg0) (funext fun a => Fin.ext ?_)
    match a with
    | ⟨0, _⟩ => show win0_0.index t (0 : Fin 4) * 1 + 1 * 0 = win0_2.index t (0 : Fin 4); omega
    | ⟨1, _⟩ => show win0_0.index t (1 : Fin 4) * 1 + 1 * 0 = win0_2.index t (1 : Fin 4); omega
    | ⟨2, _⟩ => show win0_0.index t (2 : Fin 4) * 512 + 1 * n.val = n.val; omega
    | ⟨3, _⟩ => show win0_0.index t (3 : Fin 4) * 16 + 1 * f.val = f.val; omega
  · intro n
    show V m c main_arg1 (((cfg0.win 1).blk t).view.emb (ix4 (0 : Fin 1) (0 : Fin 1) n (0 : Fin 1))) = _
    refine congrArg (V m c main_arg1) (funext fun a => Fin.ext ?_)
    match a with
    | ⟨0, _⟩ => show win0_1.index t (0 : Fin 4) * 1 + 1 * 0 = win0_2.index t (0 : Fin 4); omega
    | ⟨1, _⟩ => show win0_1.index t (1 : Fin 4) * 1 + 1 * 0 = win0_2.index t (1 : Fin 4); omega
    | ⟨2, _⟩ => show win0_1.index t (2 : Fin 4) * 512 + 1 * n.val = n.val; omega
    | ⟨3, _⟩ => show win0_1.index t (3 : Fin 4) * 1 + 1 * 0 = 0; omega
  · have hj : (j 0).val < 1 := (j 0).isLt
    show win0_2.index t (0 : Fin 4) * 1 + 1 * (j 0).val = win0_2.index t (0 : Fin 4); omega
  · have hj : (j 1).val < 1 := (j 1).isLt
    show win0_2.index t (1 : Fin 4) * 1 + 1 * (j 1).val = win0_2.index t (1 : Fin 4); omega
  · show win0_2.index t (2 : Fin 4) * 512 + 1 * (j 2).val = (j 2).val; omega
  · show win0_2.index t (3 : Fin 4) * 512 + 1 * (j 3).val = (j 3).val; omega

/-! ## The cover and the array after the region -/

/-- An index of the array is in point t's block iff each coordinate is in the block's range on its axis. -/
theorem mem_blk (t : Fin cfg0.N) (i : S8x64x512x512.Idx) :
    i ∈ ((cfg0.win 2).blk t).view.set ↔ ∀ a : Fin 4, win0_2.index t a * S1x1x512x512.size a ≤ (i a).val
      ∧ (i a).val < win0_2.index t a * S1x1x512x512.size a + S1x1x512x512.size a := by
  show i ∈ ((View.whole main_v0).slice (win0_2.rect t)).set ↔ _
  rw [View.set_slice_whole, Rect.mem_set_unit]
  exact Iff.rfl

set_option maxHeartbeats 400000 in
/-- Every index of the array is in the block of the point of its cell, and every point writes back. -/
theorem cover (i : S8x64x512x512.Idx) :
    ∃ t : Fin cfg0.N, (cfg0.win 2).flush t = true ∧ i ∈ ((cfg0.win 2).blk t).view.set := by
  have hi0 : (i 0).val < 8 := (i 0).isLt
  have hi1 : (i 1).val < 64 := (i 1).isLt
  have hi2 : (i 2).val < 512 := (i 2).isLt
  have hi3 : (i 3).val < 512 := (i 3).isLt
  have hN : cfg0.N = 512 := N_0
  have ht : (i 0).val * 64 + (i 1).val < cfg0.N := by rw [hN]; omega
  obtain ⟨t, hv⟩ : ∃ t : Fin cfg0.N, t.val = (i 0).val * 64 + (i 1).val := ⟨⟨_, ht⟩, rfl⟩
  obtain ⟨q0, q1⟩ := idx_cell t
  obtain ⟨-, -, -, -, -, -, -, -, q2, q3, -, -⟩ := idx_facts t
  rw [hv] at q0 q1
  refine ⟨t, flush0_2 t, ?_⟩
  rw [mem_blk]
  intro a
  match a with
  | ⟨0, _⟩ => show win0_2.index t (0 : Fin 4) * 1 ≤ (i 0).val ∧ (i 0).val < win0_2.index t (0 : Fin 4) * 1 + 1; omega
  | ⟨1, _⟩ => show win0_2.index t (1 : Fin 4) * 1 ≤ (i 1).val ∧ (i 1).val < win0_2.index t (1 : Fin 4) * 1 + 1; omega
  | ⟨2, _⟩ => show win0_2.index t (2 : Fin 4) * 512 ≤ (i 2).val ∧ (i 2).val < win0_2.index t (2 : Fin 4) * 512 + 512; omega
  | ⟨3, _⟩ => show win0_2.index t (3 : Fin 4) * 512 ≤ (i 3).val ∧ (i 3).val < win0_2.index t (3 : Fin 4) * 512 + 512; omega

/-- THE ARRAY AFTER THE REGION is the specified array of the argument arrays. -/
theorem final (c : Dev nD) :
    (dats m 0 c).arrAt 2 cfg0.N = pairwise (m ((c : Thread nD τ).loc main_arg0)) (m ((c : Thread nD τ).loc main_arg1)) :=
  (dats m 0 c).arrAt_eq_of_cover 2 (pairwise (V m c main_arg0) (V m c main_arg1)) (fun t _ => flushed_eq m c t) cover

end Cert.Gauss.Blocks

end
-- ==== Proof.KernelRun.lean ====
/-
  The kernel's program, run: its result array is the specification.

  After the region the program adds a trailing unit axis to the region's [8, 64, 512, 512] array.  The frame run
  leaves that array at what the blocks-to-array step names, and every other buffer as the one host line after the
  region leaves it; so the result, at (b, k, n, n', 0), is the specified entry (b, k, n, n').
-/
import proofs.«110803_j30288109371690_1_alg».proof.Proof.BlocksToArray
import Idealize.ShloMosaic.Lib.StableHlo.Run

noncomputable section

namespace Cert.Gauss.KernelRun

open Cert.KernelIdeal Cert.KernelIdeal.Gen Idealize.ShloMosaic Idealize.ShloMosaic.TcCoe Idealize.SL.Sem
open Idealize.ShloMosaic.ValueIdx Idealize.ShloMosaic.StableHlo Cert.Gauss

variable (m : (ℓ : Loc nD τ sig) → Buf (Elt Ideal) ℓ) (ρ : Dev nD → PrngReg)

/-- A trailing unit axis added to an [8, 64, 512, 512] array: entry (b, k, n, n', u) is the array's entry (b, k, n, n'). -/
theorem addUnit_apply (Y : S8x64x512x512.Idx → EReal) (i : S8x64x512x512x1.Idx) :
    broadcastInDim S8x64x512x512x1 ![0, 1, 2, 3] bcast_S8x64x512x512_S8x64x512x512x1_0_1_2_3 Y i
      = Y (ix4 (i 0) (i 1) (i 2) (i 3)) :=
  broadcastInDim_apply _ bcast_S8x64x512x512_S8x64x512x512x1_0_1_2_3 Y i (ix4 (i 0) (i 1) (i 2) (i 3)) (fun a => match a with
    | ⟨0, _⟩ => by show (i 0).val = if (8 : Nat) = 1 then 0 else (i 0).val; rw [if_neg (by decide)]
    | ⟨1, _⟩ => by show (i 1).val = if (64 : Nat) = 1 then 0 else (i 1).val; rw [if_neg (by decide)]
    | ⟨2, _⟩ => by show (i 2).val = if (512 : Nat) = 1 then 0 else (i 2).val; rw [if_neg (by decide)]
    | ⟨3, _⟩ => by show (i 3).val = if (512 : Nat) = 1 then 0 else (i 3).val; rw [if_neg (by decide)])

/-- The result buffer is no window's array and is not scoped: the frame run's post speaks of it through the host line
    after the region. -/
theorem result_mem_rest : main_v1 ∈ Pipeline.restRefs sig spec0 :=
  Pipeline.mem_restRefs_of main_v1 rfl (fun w => match w with
    | ⟨0, _⟩ => (by decide : (spec0 (0 : Fin 3)).arr.view.ref ≠ main_v1)
    | ⟨1, _⟩ => (by decide : (spec0 (1 : Fin 3)).arr.view.ref ≠ main_v1)
    | ⟨2, _⟩ => (by decide : (spec0 (2 : Fin 3)).arr.view.ref ≠ main_v1))

/-- What the host line after the region leaves in the result buffer: the specification. -/
theorem tail_eq (c : Dev nD) :
    Pipeline.afterTail₀ cfgs (dats m) 0 (V0 m) [hostOps1] c main_v1
      = result (m ((c : Thread nD τ).loc main_arg0)) (m ((c : Thread nD τ).loc main_arg1)) := by
  unfold Pipeline.afterTail₀
  show StableHlo.after hostOps1 _ (Proc.devRef .tc main_v1) = _
  after_results
  refine (congrArg (broadcastInDim S8x64x512x512x1 ![0, 1, 2, 3] bcast_S8x64x512x512_S8x64x512x512x1_0_1_2_3)
    ((Pipeline.withArrays_arr spec0 launch0.win.arr_inj c (V0 m c) (fun w => (dats m 0 c).arrAt w cfg0.N) 2).trans
      (Blocks.final m c))).trans ?_
  funext i
  rw [addUnit_apply]
  rfl

/-- THE KERNEL'S RUN: every weakly fair execution terminates with the result at the specification of the argument
    arrays, and the arguments unchanged. -/
theorem run : θ_run defs (onTc (τ := τ) (main (F := Ideal))) ⟨m, fun _ => 0, ρ⟩ fun r => ∀ c : Dev nD,
      r.2.mem ((c.tc : Thread nD τ).loc main_v1)
        = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v1 result_mem_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Gauss.KernelRun

end
-- ==== Proof.lean ====
/-
  The kernel and its reference compute the same array over the extended reals.

  For each of the 8 × 64 cells, with masked features A n f = x[n, f] · m[n] of the cell's 512 nodes, both programs
  return, at the pair of nodes (n, n'),

      min 1 (max 0 (exp (c · √(max ((s n − 2 · g n n') + s n') ε)))),   s n = ∑ f, A n f², g n n' = ∑ f, A n f · A n' f,

  with the same two float words c (nearest −1/10) and ε (nearest 1e-6), and add a trailing unit axis.

  The kernel does one cell per grid point: it forms A on the cell's [512, 16] block, the norms by a sum along the
  features, the Gram matrix by a product of A with its transpose into a zero accumulator (rounding A to the narrow
  format first, which over the extended reals is the identity), and finishes entrywise.  The reference does the same
  over the whole arrays, the Gram entries by a dot over the feature axis carrying (b, k) along.  The two sums are the
  same sums term by term and every later step is the same operation on the same operands in the same order, so the
  proof needs no law of arithmetic and never opens the precondition.

  Modules: GaussSpec (the function, index by index); RefIsSpec (the reference's last stage is it); BodyAtIndex (the
  kernel body's stored value at an entry of a block is it, for the block's features); BlocksToArray (what a grid
  point writes back is a block of it, the blocks cover, so the array after the region is it); KernelRun (the host
  line after the region adds the unit axis).  The idealization rewrote nothing, so that conjunct is trivial.
-/
import proofs.«110803_j30288109371690_1_alg».proof.Defs
import proofs.«110803_j30288109371690_1_alg».proof.Proof.Gen.Kernel
import proofs.«110803_j30288109371690_1_alg».proof.Proof.Gen.Kernel.Frame
import proofs.«110803_j30288109371690_1_alg».proof.Proof.Gen.KernelIdeal
import proofs.«110803_j30288109371690_1_alg».proof.Proof.Gen.KernelIdeal.Frame
import proofs.«110803_j30288109371690_1_alg».proof.Proof.Gen.ReferenceIdeal
import proofs.«110803_j30288109371690_1_alg».proof.Proof.Gen.Pre_finite_inputs
import proofs.«110803_j30288109371690_1_alg».proof.Proof.Gen.ReferenceIdeal.Run
import proofs.«110803_j30288109371690_1_alg».proof.Proof.Gen.ReferenceIdeal.Read
import proofs.«110803_j30288109371690_1_alg».proof.Proof.RefIsSpec
import proofs.«110803_j30288109371690_1_alg».proof.Proof.KernelRun

noncomputable section

namespace Cert.Proof

open Idealize.ShloMosaic Idealize.SL.Sem

/-- The word-level kernel runs and leaves its arguments as they were: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference has no kernel: its frame is its run with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result at the one specified function of arguments that agree. -/
theorem algebraic : Cert.algebraic_KernelIdeal_ReferenceIdeal := by
  intro m ρ m' ρ' _ hagree
  refine ⟨_, Cert.Gauss.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.Gauss.Ref.ref_is_result, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
